-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S1024x1024 .f32) (main_arg2 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1x1024 : Shape := ⟨2, ![1, 1024]⟩
abbrev S2048x512 : Shape := ⟨2, ![2048, 512]⟩
abbrev S512x512 : Shape := ⟨2, ![512, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x1024.size a
  hwx0_0 : ∀ i : grid0.Coords, EltTy.bits .f32 = 32 ∨ (Rect.block (s := S8192x1024) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S1024x1024.size a
  hwx0_1 : ∀ i : grid0.Coords, EltTy.bits .f32 = 32 ∨ (Rect.block (s := S1024x1024) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x1024.size a
  hwx0_3 : ∀ i : grid0.Coords, EltTy.bits .f32 = 32 ∨ (Rect.block (s := S8192x1024) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== Proof.Affine.lean ====
/-
  The affine map `x · w + b` over the extended reals, entry by entry, and the one law the two programs differ by:
  the contraction over 1024 indices is the sum of the contractions over its two halves.
-/
import Idealize.ShloMosaic.PureOps.Ideal
import Idealize.ShloMosaic.Lib.ValueIdx

noncomputable section

namespace Cert.Affine

open Idealize.ShloMosaic Idealize.ShloMosaic.ValueIdx
open scoped BigOperators

/-- Entry `(r, q)` of `x · w + b`: the row of `x` against the column of `w`, plus the bias of the column. -/
def affine (x : (⟨2, ![8192, 1024]⟩ : Shape).Idx → EReal) (w : (⟨2, ![1024, 1024]⟩ : Shape).Idx → EReal)
    (b : (⟨2, ![1, 1024]⟩ : Shape).Idx → EReal) : (⟨2, ![8192, 1024]⟩ : Shape).Idx → EReal :=
  fun i => (∑ k : Fin 1024, x (ix2 (i 0) k) * w (ix2 k (i 1))) + b (ix2 0 (i 1))

/-- The entry at coordinates `(r, q)`. -/
theorem affine_ix2 (x : (⟨2, ![8192, 1024]⟩ : Shape).Idx → EReal) (w : (⟨2, ![1024, 1024]⟩ : Shape).Idx → EReal)
    (b : (⟨2, ![1, 1024]⟩ : Shape).Idx → EReal) (r : Fin 8192) (q : Fin 1024) :
    affine x w b (ix2 r q) = (∑ k : Fin 1024, x (ix2 r k) * w (ix2 k q)) + b (ix2 0 q) := rfl

/-- A sum over 1024 indices is the sum over the first 512 plus the sum over the last 512. -/
theorem sum_halves {M : Type*} [AddCommMonoid M] (f : Fin 1024 → M) :
    ∑ k : Fin 1024, f k
      = ∑ k : Fin 512, f ⟨k.val, by omega⟩ + ∑ k : Fin 512, f ⟨512 + k.val, by omega⟩ :=
  Fin.sum_univ_add (a := 512) (b := 512) f

/-- The affine map with its contraction taken half by half, the bias added last. -/
theorem affine_halves (x : (⟨2, ![8192, 1024]⟩ : Shape).Idx → EReal) (w : (⟨2, ![1024, 1024]⟩ : Shape).Idx → EReal)
    (b : (⟨2, ![1, 1024]⟩ : Shape).Idx → EReal) (r : Fin 8192) (q : Fin 1024) :
    affine x w b (ix2 r q)
      = ((∑ k : Fin 512, x (ix2 r ⟨k.val, by omega⟩) * w (ix2 ⟨k.val, by omega⟩ q))
          + ∑ k : Fin 512, x (ix2 r ⟨512 + k.val, by omega⟩) * w (ix2 ⟨512 + k.val, by omega⟩ q))
        + b (ix2 0 q) := by
  rw [affine_ix2, sum_halves]

end Cert.Affine

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.KerValue.lean ====
/-
  The kernel's result array. Grid point `t` of its 8 points stages rows [1024·t, 1024·t + 1024) of `x`, all of `w`
  and the bias row, and writes back the same rows of the result: each entry the row of `x` against the column of `w`
  (the conversions to a narrower format are the identity over the extended reals), plus the bias of the column. The
  eight row bands tile the result, so the array ends at `x · w + b`.
-/
import proofs.«161887_g2000509682604096_pallasbulk_105_22_alg».proof.Proof.Gen.KernelIdeal.Value
import proofs.«161887_g2000509682604096_pallasbulk_105_22_alg».proof.Proof.Affine
import proofs.«161887_g2000509682604096_pallasbulk_105_22_alg».proof.Proof.LibMatmulPlain
import Idealize.ShloMosaic.Lib.ValueIdx
import Idealize.ShloMosaic.Lib.ValueLayout
import Idealize.ShloMosaic.Lib.Pipeline.Value

set_option maxRecDepth 16384

noncomputable section

namespace Cert.KernelIdeal.Bands

open Cert.KernelIdeal Cert.KernelIdeal.Gen Idealize.ShloMosaic Idealize.ShloMosaic.TcCoe Idealize.SL.Sem
open Idealize.ShloMosaic.Pipeline (Dat)
open Idealize.ShloMosaic.ValueIdx Cert.Affine
open scoped BigOperators

variable (m : (ℓ : Loc nD τ sig) → Buf (Elt Ideal) ℓ) (ρ : Dev nD → PrngReg)

theorem zeros2 : (![0, 0] : Fin 2 → Nat) = fun _ => 0 := funext fun a => by fin_cases a <;> rfl

/-- The body's one stored value at entry `(p, q)` of the block: row `p` of the first block against column `q` of
    the second, plus the bias row at `q`. -/
theorem pay_apply (x0 : Vec Ideal S1024x1024 .f32) (x1 : Vec Ideal S1024x1024 .f32) (x2 : Vec Ideal S1x1024 .f32)
    (p q : Fin 1024) :
    k0_pay1 x0 x1 x2 (ix2 p q) = (∑ k : Fin 1024, x0 (ix2 p k) * x1 (ix2 k q)) + x2 (ix2 0 q) := by
  unfold k0_pay1
  rw [addf_apply]
  refine congrArg₂ (· + ·) ?_ ?_
  · exact MatmulPlain.matmul_zero_apply ⟨rfl, rfl, rfl, rfl, rfl, rfl⟩ none _ _ p q
  · exact broadcastTo_1b_ab_apply x2 _ p q

/-- The printed index maps over the grid: the row band of `x` and of the result is the point's number; `w` and the
    bias are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is its row band of `x · w + b`. -/
theorem flushed_eq (c : Dev nD) (t : Fin cfg0.N) :
    (dats m 0 c).flushed 3 t
      = ((cfg0.win 3).blk t).view.read (Elt Ideal) (affine (V m c main_arg0) (V m c main_arg1) (V m c main_arg2)) := by
  rw [Cert.KernelIdeal.Value.flushed3]
  unfold out0_3
  rw [View.canon_unit_zero zeros2]
  simp only [View.ld_unit_zero (S := S1024x1024) zeros2, View.ld_unit_zero (S := S1x1024) zeros2]
  obtain ⟨e00, e01, e10, e11, e20, e21, e30, e31⟩ := idx_facts t
  have hN : t.val < 8 := lt_of_lt_of_eq t.isLt (show cfg0.N = 8 from N_0)
  funext j
  obtain ⟨p, q, rfl⟩ : ∃ (p : Fin 1024) (q : Fin 1024), j = ix2 p q := ⟨j 0, j 1, eq_ix2 j⟩
  show k0_pay1 (iblk m c 0 t) (iblk m c 1 t) (iblk m c 2 t) (ix2 p q)
    = affine (V m c main_arg0) (V m c main_arg1) (V m c main_arg2) (((cfg0.win 3).blk t).view.emb (ix2 p q))
  have hemb : ((cfg0.win 3).blk t).view.emb (ix2 p q) = ix2 (⟨t.val * 1024 + p.val, by omega⟩ : Fin 8192) q := by
    funext a; apply Fin.ext
    match a with
    | ⟨0, _⟩ => show win0_3.index t (0 : Fin 2) * 1024 + 1 * p.val = t.val * 1024 + p.val; omega
    | ⟨1, _⟩ => show win0_3.index t (1 : Fin 2) * 1024 + 1 * q.val = q.val; omega
  rw [hemb, affine_ix2]
  refine (pay_apply _ _ _ p q).trans ?_
  have hb : iblk m c 2 t (ix2 0 q) = V m c main_arg2 (ix2 0 q) := by
    show V m c main_arg2 (((cfg0.win 2).blk t).view.emb (ix2 0 q)) = _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * q.val = q.val; omega
  rw [hb]
  refine congrArg (· + _) (Finset.sum_congr rfl fun k _ => ?_)
  have hx : iblk m c 0 t (ix2 p k) = V m c main_arg0 (ix2 (⟨t.val * 1024 + p.val, by omega⟩ : Fin 8192) k) := by
    show V m c main_arg0 (((cfg0.win 0).blk t).view.emb (ix2 p k)) = _
    refine congrArg _ (funext fun a => Fin.ext ?_)
    match a with
    | ⟨0, _⟩ => show win0_0.index t (0 : Fin 2) * 1024 + 1 * p.val = t.val * 1024 + p.val; omega
    | ⟨1, _⟩ => show win0_0.index t (1 : Fin 2) * 1024 + 1 * k.val = k.val; omega
  have hw : iblk m c 1 t (ix2 k q) = V m c main_arg1 (ix2 k q) := by
    show V m c main_arg1 (((cfg0.win 1).blk t).view.emb (ix2 k q)) = _
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * q.val = q.val; omega
  rw [hx, hw]

/-- An index of the result is in point `t`'s band iff each coordinate is in the band's range on its axis. -/
theorem mem_blk (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0).slice (win0_3.rect t)).set ↔ _
  rw [View.set_slice_whole, Rect.mem_set_unit]
  exact Iff.rfl

/-- Every index of the result is in the band of the point its row divided by 1024 names. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  let t : Fin cfg0.N := ⟨(i 0).val / 1024, by rw [hN]; omega⟩
  obtain ⟨-, -, -, -, -, -, e30, e31⟩ := idx_facts t
  have ht : t.val = (i 0).val / 1024 := rfl
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The result array after the run is `x · w + b` of the argument arrays. -/
theorem final (c : Dev nD) :
    (dats m 0 c).arrAt 3 cfg0.N
      = affine (m ((c : Thread nD τ).loc main_arg0)) (m ((c : Thread nD τ).loc main_arg1)) (m ((c : Thread nD τ).loc main_arg2)) :=
  (dats m 0 c).arrAt_eq_of_cover 3 _ (fun t _ => flushed_eq m c t) cover

/-- The run: the result at `x · w + b`, the arguments unchanged. -/
theorem run : θ_run defs (onTc (τ := τ) (main (F := Ideal))) ⟨m, fun _ => 0, ρ⟩ fun r => ∀ c : Dev nD,
      r.2.mem ((c : Thread nD τ).loc main_v0)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Bands

end
-- ==== Proof.RefSteps.lean ====
/-
  The reference kernel's body, one run per position along the contraction axis of its grid.

  The grid is 4 × 2 × 2; the last axis walks the two halves of the contraction. At the first half the body stores the
  partial product of its two blocks into the output block; at the second half it adds its partial product to what the
  output block holds and then adds the bias row to every row.
-/
import proofs.«161887_g2000509682604096_pallasbulk_105_22_alg».proof.Proof.Gen.ReferenceIdeal.Frame
import proofs.«161887_g2000509682604096_pallasbulk_105_22_alg».proof.Proof.Gen.ReferenceIdeal.Skeleton
import Idealize.ShloMosaic.Lib.Pipeline.Value

set_option maxRecDepth 16384

noncomputable section

namespace Cert.ReferenceIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-- The whole-block rectangle every load and store of the body goes through. -/
abbrev rO : Rect S2048x512 := Rect.unit (s := S2048x512) ![0, 0] S2048x512.size inb_S2048x512_S2048x512_0_0

theorem zeros2 : (![0, 0] : Fin 2 → Nat) = fun _ => 0 := by
  funext a; fin_cases a <;> rfl

set_option maxHeartbeats 1000000 in
/-- First half of the contraction: the output block ends at the partial product of the two input blocks. -/
theorem run_first (c : Dev nD) (E : Set ℕ) (i : grid0.Coords)
    (arg3 : Memref sig .tc .vmem S2048x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S2048x512 .f32) (harg6 : arg6.IsWhole)
    (h1 : k0_cond1 i = 1#1) (h2 : ¬ k0_cond2 i = 1#1) (h3 : ¬ k0_cond3 i = 1#1)
    (x0 : Vec F S2048x512 .f32) (x1 : Vec F S512x512 .f32) (x2 : Vec F S1x512 .f32) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (k0_pay1 x0 x1)) -∗ K ⟨⟩))
      ⊢ wp frame (wpE (defs₀ (F := F)) Variants.none c none) E (cc0__linear_tiled_kernel i arg3 harg3 arg4 harg4 arg5 harg5 arg6 harg6) K := by
  simp only [cc0__linear_tiled_kernel_eq_skeleton]; unfold cc0__linear_tiled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero zeros2 inb_S2048x512_S2048x512_0_0 y⟩),
    View.canon_unit_zero zeros2]
  simp only [View.readAt_eq_ld, View.ld_unit_zero (S := S2048x512) zeros2, View.ld_unit_zero (S := S512x512) zeros2]

set_option maxHeartbeats 1000000 in
/-- Second half of the contraction: the output block, found holding `xo`, ends at `xo` plus the partial product of the
    two input blocks, plus the bias row on every row. -/
theorem run_second (c : Dev nD) (E : Set ℕ) (i : grid0.Coords)
    (arg3 : Memref sig .tc .vmem S2048x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S2048x512 .f32) (harg6 : arg6.IsWhole)
    (h1 : ¬ k0_cond1 i = 1#1) (h2 : k0_cond2 i = 1#1) (h3 : k0_cond3 i = 1#1)
    (x0 : Vec F S2048x512 .f32) (x1 : Vec F S512x512 .f32) (x2 : Vec F S1x512 .f32) (xo : Vec F S2048x512 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo
        ∗ (iprop(owns (c : Thread nD τ) arg3 fullShare x0 ∗ owns (c : Thread nD τ) arg4 fullShare x1 ∗ owns (c : Thread nD τ) arg5 fullShare x2 ∗ owns (c : Thread nD τ) arg6 fullShare (k0_pay3 (k0_pay2 x0 x1 xo) x2)) -∗ K ⟨⟩))
      ⊢ wp frame (wpE (defs₀ (F := F)) Variants.none c none) E (cc0__linear_tiled_kernel i arg3 harg3 arg4 harg4 arg5 harg5 arg6 harg6) K := by
  simp only [cc0__linear_tiled_kernel_eq_skeleton]; unfold cc0__linear_tiled_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero zeros2 inb_S2048x512_S2048x512_0_0 y⟩),
    View.canon_cons_unit_zero zeros2]
  sl_unfold_words
  rw [View.readCov_unit_zero _ zeros2]
  simp only [View.readAt_eq_ld, View.ld_unit_zero (S := S2048x512) zeros2, View.ld_unit_zero (S := S512x512) zeros2,
    View.ld_unit_zero (S := S1x512) zeros2]

end Cert.ReferenceIdeal.Steps

end
-- ==== Proof.RefAcc.lean ====
/-
  The reference kernel's run over its grid: what the output block's staging buffer holds after each point, the
  body's obligation at every point, the run of the whole program, and its frame.

  Points are numbered with the contraction half fastest: an even point is the first half of a block's contraction,
  the odd point after it the second half of the same block. After an even point the buffer holds the partial product
  of that point's blocks; after an odd point it holds the partial product of the point before, plus this point's,
  plus the bias row. The buffer is written back after odd points only, so an odd point finds what the even point
  before it left.
-/
import proofs.«161887_g2000509682604096_pallasbulk_105_22_alg».proof.Proof.RefSteps
import proofs.«161887_g2000509682604096_pallasbulk_105_22_alg».proof.Proof.Gen.ReferenceIdeal.Launch
import proofs.«161887_g2000509682604096_pallasbulk_105_22_alg».proof.Proof.Gen.ReferenceIdeal.Points

set_option maxRecDepth 16384

noncomputable section

namespace Cert.ReferenceIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Cert.ReferenceIdeal.Steps

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

/-- The store of the bare partial product happens at the even points, -/
theorem hcond1 : ∀ t : Fin cfg0.N, k0_cond1 (grid0.coords t) = 1#1 ↔ t.val % 2 = 0 :=
  (by decide +kernel : ∀ t : Fin grid0.N, k0_cond1 (grid0.coords t) = 1#1 ↔ t.val % 2 = 0)
/-- the accumulation at the odd points, -/
theorem hcond2 : ∀ t : Fin cfg0.N, k0_cond2 (grid0.coords t) = 1#1 ↔ t.val % 2 = 1 :=
  (by decide +kernel : ∀ t : Fin grid0.N, k0_cond2 (grid0.coords t) = 1#1 ↔ t.val % 2 = 1)
/-- and so does the addition of the bias. -/
theorem hcond3 : ∀ t : Fin cfg0.N, k0_cond3 (grid0.coords t) = 1#1 ↔ t.val % 2 = 1 :=
  (by decide +kernel : ∀ t : Fin grid0.N, k0_cond3 (grid0.coords t) = 1#1 ↔ t.val % 2 = 1)

/-- At every setting of the coordinates one of the three stores happens: the output window is never idle. -/
theorem live3 (i : grid0.Coords) : cfg0.idle 3 i = false := by
  have key : ∀ k : Fin 2,
      (!(Scalar.cmpi .ne (Scalar.extui (Scalar.cmpi .eq (BitVec.ofNat 32 k.val) 0#32)) 0#32 == 1#1)
        && !(Scalar.cmpi .ne (Scalar.extui (Scalar.cmpi .sgt (BitVec.ofNat 32 k.val) 0#32)) 0#32 == 1#1)
        && !(Scalar.cmpi .ne (Scalar.extui (Scalar.cmpi .eq (BitVec.ofNat 32 k.val) 1#32)) 0#32 == 1#1)) = false := by
    decide
  exact key (i 2)

/-! ## What the output block's buffer holds after each point -/

/-- The point before. -/
def prev (t : Fin cfg0.N) : Fin cfg0.N := ⟨t.val - 1, Nat.lt_of_le_of_lt (Nat.sub_le _ _) t.isLt⟩

/-- The partial product of a point's two input blocks. -/
def part (c : Dev nD) (t : Fin cfg0.N) : Vec F S2048x512 .f32 := k0_pay1 (iblk m c 0 t) (iblk m c 1 t)

/-- After an even point: its partial product. After an odd point: the partial product of the point before, plus this
    point's, plus the bias row. -/
def outAt (c : Dev nD) (t : Fin cfg0.N) : Vec F S2048x512 .f32 :=
  if t.val % 2 = 0 then part m c t
  else k0_pay3 (k0_pay2 (iblk m c 0 t) (iblk m c 1 t) (part m c (prev t))) (iblk m c 2 t)

theorem outAt_first (c : Dev nD) (t : Fin cfg0.N) (h : t.val % 2 = 0) : outAt m c t = part m c t := if_pos h
theorem outAt_second (c : Dev nD) (t : Fin cfg0.N) (h : t.val % 2 = 1) :
    outAt m c t = k0_pay3 (k0_pay2 (iblk m c 0 t) (iblk m c 1 t) (part m c (prev t))) (iblk m c 2 t) :=
  if_neg (by omega)

/-! ## The proof data -/

/-- The arrays as the region finds them; after the body each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At an odd point the output's buffer holds the partial product the even point before left: the buffer is not written
    back after an even point, and the window is never idle. -/
theorem before0_3_second (c : Dev nD) (t : Fin cfg0.N) (h : t.val % 2 = 1) (d) :
    (dats m 0 c).before 3 t d = part m c (prev t) := by
  rw [Dat.before_out_kept _ 3 rfl t (by omega)
    (Bool.eq_false_iff.mpr fun h' => by have := (flush0_3 _).mp h'; dsimp only at this; omega) live3 (fun _ _ => rfl)]
  rw [after0_3]
  exact outAt_first m c (prev t) (by unfold prev; dsimp only; omega)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: an even point runs the first-half step on whatever the output's buffer holds, an odd point
    the second-half step on what the even point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 2 = 0
  · rw [outAt_first m c t h0]
    unfold part
    iintro ⟨HΦ, Ho, ⟨%d0, H0⟩, ⟨%d1, H1⟩, ⟨%d2, H2⟩, ⟨%d3, H3⟩⟩
    iapply (run_first c Set.univ (grid0.coords t) _ _ _ _ _ _ _ _ ((hcond1 t).mpr h0)
      (fun h => by have := (hcond2 t).mp h; omega) (fun h => by have := (hcond3 t).mp h; omega)
      (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have h1 : t.val % 2 = 1 := by omega
    rw [outAt_second m c t h1]
    simp only [before0_3_second m c t h1]
    iintro ⟨HΦ, Ho, ⟨%d0, H0⟩, ⟨%d1, H1⟩, ⟨%d2, H2⟩, ⟨%d3, H3⟩⟩
    iapply (run_second c Set.univ (grid0.coords t) _ _ _ _ _ _ _ _ (fun h => by have := (hcond1 t).mp h; omega)
      ((hcond2 t).mpr h1) ((hcond3 t).mpr h1)
      (iblk m c 0 t) (iblk m c 1 t) (iblk m c 2 t) (part m c (prev t)) _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  have hl : cfg0.idle 3 (cfg0.grid.coords t) = false := live3 _
  rw [hl]
  exact sound_body m c t

/-! ## The run and the frame -/

set_option backward.isDefEq.respectTransparency.types false in
/-- Every weakly fair execution of the program terminates, every array of the pipeline ending at what the library
    computes from the proof data and every other buffer as found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.Acc

end
-- ==== Proof.RefValue.lean ====
/-
  The reference's result array. Its grid is 4 × 2 × 2 with the contraction half fastest: point `t` works on row band
  `t / 4` (2048 rows), column band `(t / 2) % 2` (512 columns) and contraction half `t % 2` (512 indices). The
  output block is written back after the odd points, holding by then the first half's partial product, plus the second
  half's, plus the bias row: the block of `x · w + b`, the contraction split in two. The eight blocks tile the result.
-/
import proofs.«161887_g2000509682604096_pallasbulk_105_22_alg».proof.Proof.RefAcc
import proofs.«161887_g2000509682604096_pallasbulk_105_22_alg».proof.Proof.Affine
import proofs.«161887_g2000509682604096_pallasbulk_105_22_alg».proof.Proof.LibMatmulPlain
import Idealize.ShloMosaic.Lib.ValueIdx
import Idealize.ShloMosaic.Lib.ValueLayout
import Idealize.ShloMosaic.Lib.Pipeline.Value

set_option maxRecDepth 16384

noncomputable section

namespace Cert.ReferenceIdeal.Blocks

open Cert.ReferenceIdeal Cert.ReferenceIdeal.Gen Cert.ReferenceIdeal.Acc
open Idealize.ShloMosaic Idealize.ShloMosaic.TcCoe Idealize.SL.Sem
open Idealize.ShloMosaic.Pipeline (Dat)
open Idealize.ShloMosaic.ValueIdx Cert.Affine
open scoped BigOperators

variable (m : (ℓ : Loc nD τ sig) → Buf (Elt Ideal) ℓ) (ρ : Dev nD → PrngReg)

/-- The partial product at entry `(p, q)`: row `p` of the first block against column `q` of the second. -/
theorem part_apply (x0 : Vec Ideal S2048x512 .f32) (x1 : Vec Ideal S512x512 .f32) (p : Fin 2048) (q : Fin 512) :
    k0_pay1 x0 x1 (ix2 p q) = ∑ k : Fin 512, x0 (ix2 p k) * x1 (ix2 k q) := by
  unfold k0_pay1
  exact MatmulPlain.matmul_zero_apply ⟨rfl, rfl, rfl, rfl, rfl, rfl⟩ none x0 x1 p q

/-- The second half's result at entry `(p, q)`: what the block held, plus the partial product, plus the bias row at `q`. -/
theorem second_apply (x0 : Vec Ideal S2048x512 .f32) (x1 : Vec Ideal S512x512 .f32) (x2 : Vec Ideal S1x512 .f32)
    (xo : Vec Ideal S2048x512 .f32) (p : Fin 2048) (q : Fin 512) :
    k0_pay3 (k0_pay2 x0 x1 xo) x2 (ix2 p q)
      = (xo (ix2 p q) + ∑ k : Fin 512, x0 (ix2 p k) * x1 (ix2 k q)) + x2 (ix2 0 q) := by
  unfold k0_pay3 k0_pay2
  rw [addf_apply, shapeCast_self, addf_apply, shapeCast_self, part_apply, broadcastTo_1b_ab_apply]

/-- The printed index maps over the grid. -/
theorem idx_facts : ∀ t : Fin cfg0.N, win0_0.index t (0 : Fin 2) = t.val / 4 ∧ win0_0.index t (1 : Fin 2) = t.val % 2
    ∧ win0_1.index t (0 : Fin 2) = t.val % 2 ∧ win0_1.index t (1 : Fin 2) = t.val / 2 % 2
    ∧ win0_2.index t (0 : Fin 2) = 0 ∧ win0_2.index t (1 : Fin 2) = t.val / 2 % 2
    ∧ win0_3.index t (0 : Fin 2) = t.val / 4 ∧ win0_3.index t (1 : Fin 2) = t.val / 2 % 2 :=
  (by decide +kernel : ∀ t : Fin grid0.N, _)

/-- What an odd point writes back is its block of `x · w + b`. -/
theorem flushed_eq (c : Dev nD) (t : Fin cfg0.N) (h : t.val % 2 = 1) :
    (dats m 0 c).flushed 3 t
      = ((cfg0.win 3).blk t).view.read (Elt Ideal) (affine (V m c main_arg0) (V m c main_arg1) (V m c main_arg2)) := by
  show (cfg0.win 3).cut (grid0.coords t) ((dats m 0 c).after 3 t) = _
  rw [after0_3, outAt_second m c t h]
  unfold part
  obtain ⟨e00, e01, e10, e11, e20, e21, e30, e31⟩ := idx_facts t
  obtain ⟨f00, f01, f10, f11, -, -, -, -⟩ := idx_facts (prev t)
  have hp : (prev t).val = t.val - 1 := rfl
  have hN : t.val < 16 := lt_of_lt_of_eq t.isLt (show cfg0.N = 16 from N_0)
  funext j
  obtain ⟨p, q, rfl⟩ : ∃ (p : Fin 2048) (q : Fin 512), j = ix2 p q := ⟨j 0, j 1, eq_ix2 j⟩
  show k0_pay3 (k0_pay2 (iblk m c 0 t) (iblk m c 1 t) (k0_pay1 (iblk m c 0 (prev t)) (iblk m c 1 (prev t)))) (iblk m c 2 t) (ix2 p q)
    = affine (V m c main_arg0) (V m c main_arg1) (V m c main_arg2) (((cfg0.win 3).blk t).view.emb (ix2 p q))
  have hemb : ((cfg0.win 3).blk t).view.emb (ix2 p q)
      = ix2 (⟨t.val / 4 * 2048 + p.val, by omega⟩ : Fin 8192) (⟨t.val / 2 % 2 * 512 + q.val, by omega⟩ : Fin 1024) := by
    funext a; apply Fin.ext
    match a with
    | ⟨0, _⟩ => show win0_3.index t (0 : Fin 2) * 2048 + 1 * p.val = t.val / 4 * 2048 + p.val; omega
    | ⟨1, _⟩ => show win0_3.index t (1 : Fin 2) * 512 + 1 * q.val = t.val / 2 % 2 * 512 + q.val; omega
  rw [hemb, affine_halves]
  refine (second_apply _ _ _ _ p q).trans ?_
  refine congrArg₂ (· + ·) (congrArg₂ (· + ·) ?_ ?_) ?_
  · refine (part_apply _ _ p q).trans (Finset.sum_congr rfl fun k _ => ?_)
    have hx : iblk m c 0 (prev t) (ix2 p k)
        = V m c main_arg0 (ix2 (⟨t.val / 4 * 2048 + p.val, by omega⟩ : Fin 8192) (⟨k.val, by omega⟩ : Fin 1024)) := by
      show V m c main_arg0 (((cfg0.win 0).blk (prev t)).view.emb (ix2 p k)) = _
      refine congrArg _ (funext fun a => Fin.ext ?_)
      match a with
      | ⟨0, _⟩ => show win0_0.index (prev t) (0 : Fin 2) * 2048 + 1 * p.val = t.val / 4 * 2048 + p.val; omega
      | ⟨1, _⟩ => show win0_0.index (prev t) (1 : Fin 2) * 512 + 1 * k.val = k.val; omega
    have hw : iblk m c 1 (prev t) (ix2 k q)
        = V m c main_arg1 (ix2 (⟨k.val, by omega⟩ : Fin 1024) (⟨t.val / 2 % 2 * 512 + q.val, by omega⟩ : Fin 1024)) := by
      show V m c main_arg1 (((cfg0.win 1).blk (prev t)).view.emb (ix2 k q)) = _
      refine congrArg _ (funext fun a => Fin.ext ?_)
      match a with
      | ⟨0, _⟩ => show win0_1.index (prev t) (0 : Fin 2) * 512 + 1 * k.val = k.val; omega
      | ⟨1, _⟩ => show win0_1.index (prev t) (1 : Fin 2) * 512 + 1 * q.val = t.val / 2 % 2 * 512 + q.val; omega
    rw [hx, hw]
  · refine Finset.sum_congr rfl fun k _ => ?_
    have hx : iblk m c 0 t (ix2 p k)
        = V m c main_arg0 (ix2 (⟨t.val / 4 * 2048 + p.val, by omega⟩ : Fin 8192) (⟨512 + k.val, by omega⟩ : Fin 1024)) := by
      show V m c main_arg0 (((cfg0.win 0).blk t).view.emb (ix2 p k)) = _
      refine congrArg _ (funext fun a => Fin.ext ?_)
      match a with
      | ⟨0, _⟩ => show win0_0.index t (0 : Fin 2) * 2048 + 1 * p.val = t.val / 4 * 2048 + p.val; omega
      | ⟨1, _⟩ => show win0_0.index t (1 : Fin 2) * 512 + 1 * k.val = 512 + k.val; omega
    have hw : iblk m c 1 t (ix2 k q)
        = V m c main_arg1 (ix2 (⟨512 + k.val, by omega⟩ : Fin 1024) (⟨t.val / 2 % 2 * 512 + q.val, by omega⟩ : Fin 1024)) := by
      show V m c main_arg1 (((cfg0.win 1).blk t).view.emb (ix2 k q)) = _
      refine congrArg _ (funext fun a => Fin.ext ?_)
      match a with
      | ⟨0, _⟩ => show win0_1.index t (0 : Fin 2) * 512 + 1 * k.val = 512 + k.val; omega
      | ⟨1, _⟩ => show win0_1.index t (1 : Fin 2) * 512 + 1 * q.val = t.val / 2 % 2 * 512 + q.val; omega
    rw [hx, hw]
  · show V m c main_arg2 (((cfg0.win 2).blk t).view.emb (ix2 0 q)) = _
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * q.val = t.val / 2 % 2 * 512 + q.val; omega

/-- An index of the result is in point `t`'s block iff each coordinate is in the block's range on its axis. -/
theorem mem_blk (t : Fin cfg0.N) (i : S8192x1024.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v0).slice (win0_3.rect t)).set ↔ _
  rw [View.set_slice_whole, Rect.mem_set_unit]
  exact Iff.rfl

/-- Every index of the result is in the block of an odd point: the one of its row band and column band. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  let t : Fin cfg0.N := ⟨(i 0).val / 2048 * 4 + (i 1).val / 512 * 2 + 1, by rw [hN]; omega⟩
  obtain ⟨-, -, -, -, -, -, e30, e31⟩ := idx_facts t
  have ht : t.val = (i 0).val / 2048 * 4 + (i 1).val / 512 * 2 + 1 := rfl
  refine ⟨t, (flush0_3 t).mpr (by omega), ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- The result array after the run is `x · w + b` of the argument arrays. -/
theorem final (c : Dev nD) :
    (dats m 0 c).arrAt 3 cfg0.N
      = affine (m ((c : Thread nD τ).loc main_arg0)) (m ((c : Thread nD τ).loc main_arg1)) (m ((c : Thread nD τ).loc main_arg2)) :=
  (dats m 0 c).arrAt_eq_of_cover 3 _ (fun t hf => flushed_eq m c t ((flush0_3 t).mp hf)) cover

/-- The run: the result at `x · w + b`, the arguments unchanged. -/
theorem run : θ_run defs (onTc (τ := τ) (main (F := Ideal))) ⟨m, fun _ => 0, ρ⟩ fun r => ∀ c : Dev nD,
      r.2.mem ((c : Thread nD τ).loc main_v0)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Blocks

end
-- ==== Proof.lean ====
/-
  A dense affine layer, `x · w + b` with `x` of 8192 × 1024, `w` of 1024 × 1024 and a bias row of 1024, computed two
  ways. The kernel walks 8 row bands of 1024 rows and contracts all 1024 indices at once. The reference walks
  4 × 2 blocks of 2048 × 512 and contracts in two halves of 512, keeping the first half's partial product in the
  output block and adding the second half's and the bias to it. Over the extended reals addition is associative and
  commutative, so a sum over 1024 indices is the sum of its two halves, and both programs end with the same array
  (Proof/Affine.lean); no finiteness of the inputs is needed.

  The kernel's and its idealization's frames are the generated ones; the reference's frame is the run of its body
  at every grid point (Proof/RefSteps.lean, Proof/RefAcc.lean); the result arrays are read in Proof/KerValue.lean and
  Proof/RefValue.lean. The idealization rewrote nothing, so it is preserved trivially.
-/
import proofs.«161887_g2000509682604096_pallasbulk_105_22_alg».proof.Defs
import proofs.«161887_g2000509682604096_pallasbulk_105_22_alg».proof.Proof.Gen.Kernel
import proofs.«161887_g2000509682604096_pallasbulk_105_22_alg».proof.Proof.Gen.Kernel.Frame
import proofs.«161887_g2000509682604096_pallasbulk_105_22_alg».proof.Proof.Gen.KernelIdeal
import proofs.«161887_g2000509682604096_pallasbulk_105_22_alg».proof.Proof.Gen.KernelIdeal.Frame
import proofs.«161887_g2000509682604096_pallasbulk_105_22_alg».proof.Proof.Gen.ReferenceIdeal
import proofs.«161887_g2000509682604096_pallasbulk_105_22_alg».proof.Proof.Gen.Pre_finite_inputs
import proofs.«161887_g2000509682604096_pallasbulk_105_22_alg».proof.Proof.KerValue
import proofs.«161887_g2000509682604096_pallasbulk_105_22_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Acc.frame m ρ

theorem preserves : Cert.preserves_Kernel_KernelIdeal := trivial

/-- Both programs end with `x · w + b` of their argument arrays, and the argument arrays agree. -/
theorem algebraic : Cert.algebraic_KernelIdeal_ReferenceIdeal := by
  intro m ρ m' ρ' _ hagree
  refine ⟨_, Cert.KernelIdeal.Bands.run m ρ, ?_⟩
  refine (θ_run Cert.ReferenceIdeal.defs _ _).mono (fun r h c => ⟨(h c).1.trans ?_, (h c).2⟩)
    (Cert.ReferenceIdeal.Blocks.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
